-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x256 : Shape := ⟨2, ![128, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_arg5 : FVec F S128x256 .f32) (main_arg6 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x256 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x256 : Shape := ⟨2, ![128, 256]⟩
abbrev S1x1600000 : Shape := ⟨2, ![1, 1600000]⟩
abbrev S1x128 : Shape := ⟨2, ![1, 128]⟩
abbrev S5000x128 : Shape := ⟨2, ![5000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S256x128 : Shape := ⟨2, ![256, 128]⟩
abbrev S5000 : Shape := ⟨1, ![5000]⟩
abbrev S5000x1 : Shape := ⟨2, ![5000, 1]⟩

abbrev nBuf : Space → Nat
  | .hbm => 45
  | .vmem => 15
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S128x128, .f32⟩
  | .hbm, ⟨12, _⟩ => ⟨S1x128, .f32⟩
  | .hbm, ⟨13, _⟩ => ⟨S100000x128, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S1600000x1, .f32⟩
  | .hbm, ⟨31, _⟩ => ⟨S1600000x128, .f32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S256x128, .f32⟩
  | .hbm, ⟨41, _⟩ => ⟨S128x128, .f32⟩
  | .hbm, ⟨42, _⟩ => ⟨S128x128, .f32⟩
  | .hbm, ⟨43, _⟩ => ⟨S1x128, .f32⟩
  | .hbm, ⟨44, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S128x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x256_S256x128_1_0 : S128x256.Transposes [1, 0] S256x128
  slices_S256x128_S128x128_0_0 : S256x128.Slices ![0, 0] S128x128
  slices_S256x128_S128x128_128_0 : S256x128.Slices ![128, 0] S128x128
  shapeCasts_S5000x128_S5000x128 : S5000x128.ShapeCasts S5000x128
  reduces_S5000x128_S5000 : S5000x128.Reduces [1] S5000
  shapeCasts_S5000_S5000x1 : S5000.ShapeCasts S5000x1
  broadcasts_S5000x1_S5000x128 : S5000x1.Broadcasts S5000x128
  dot_S5000x128_S128x128_S5000x128_1_0_0_1_n_n_wf : DotDims.WF S5000x128 S128x128 S5000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S128x256 : Shape := ⟨2, ![128, 256]⟩
abbrev S1x128 : Shape := ⟨2, ![1, 128]⟩
abbrev S_ : Shape := ⟨0, ![]⟩
abbrev S1x1600000 : Shape := ⟨2, ![1, 1600000]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S100000x256 : Shape := ⟨2, ![100000, 256]⟩
abbrev S256x128 : Shape := ⟨2, ![256, 128]⟩

abbrev nBuf : Space → Nat
  | .hbm => 64
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x256, .f32⟩
  | .hbm, ⟨6, _⟩ => ⟨S128, .f32⟩
  | .hbm, ⟨7, _⟩ => ⟨S128x128, .f32⟩
  | .hbm, ⟨8, _⟩ => ⟨S100000x128, .f32⟩
  | .hbm, ⟨9, _⟩ => ⟨S1x128, .f32⟩
  | .hbm, ⟨10, _⟩ => ⟨S100000x128, .f32⟩
  | .hbm, ⟨11, _⟩ => ⟨S100000x128, .f32⟩
  | .hbm, ⟨12, _⟩ => ⟨S_, .f32⟩
  | .hbm, ⟨13, _⟩ => ⟨S100000x128, .f32⟩
  | .hbm, ⟨14, _⟩ => ⟨S100000x128, .f32⟩
  | .hbm, ⟨15, _⟩ => ⟨S1x1600000, .i32⟩
  | .hbm, ⟨16, _⟩ => ⟨S1600000, .i32⟩
  | .hbm, ⟨17, _⟩ => ⟨S1x1600000, .i32⟩
  | .hbm, ⟨18, _⟩ => ⟨S1600000, .i32⟩
  | .hbm, ⟨19, _⟩ => ⟨S_, .f32⟩
  | .hbm, ⟨20, _⟩ => ⟨S100000, .f32⟩
  | .hbm, ⟨21, _⟩ => ⟨S1600000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S1600000x1, .f32⟩
  | .hbm, ⟨36, _⟩ => ⟨S1600000x128, .f32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S100000x256, .f32⟩
  | .hbm, ⟨46, _⟩ => ⟨S256x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S_, .f32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S100000, .f32⟩
  | .hbm, ⟨57, _⟩ => ⟨S100000x1, .f32⟩
  | .hbm, ⟨58, _⟩ => ⟨S100000x1, .f32⟩
  | .hbm, ⟨59, _⟩ => ⟨S_, .f32⟩
  | .hbm, ⟨60, _⟩ => ⟨S100000x1, .f32⟩
  | .hbm, ⟨61, _⟩ => ⟨S100000x1, .f32⟩
  | .hbm, ⟨62, _⟩ => ⟨S100000x128, .f32⟩
  | .hbm, ⟨63, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call1_cst : Ref sig .tc := ⟨.hbm, 51, rfl⟩
abbrev main_call1_v0 : Ref sig .tc := ⟨.hbm, 52, rfl⟩
abbrev main_v37 : Ref sig .tc := ⟨.hbm, 53, rfl⟩
abbrev main_call2_v0 : Ref sig .tc := ⟨.hbm, 54, rfl⟩
abbrev main_call2_cst : Ref sig .tc := ⟨.hbm, 55, rfl⟩
abbrev main_call2_v1 : Ref sig .tc := ⟨.hbm, 56, rfl⟩
abbrev main_call2_v2 : Ref sig .tc := ⟨.hbm, 57, rfl⟩
abbrev main_v38 : Ref sig .tc := ⟨.hbm, 58, rfl⟩
abbrev main_cst_3 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  concatenates_S100000x128_S100000x128_S100000x256_d1 : Shape.Concatenates [S100000x128, S100000x128] S100000x256 1
  transposes_S128x256_S256x128_1_0 : S128x256.Transposes [1, 0] S256x128
  reducesTo_S100000x128_S100000_d1 : S100000x128.ReducesTo [1] S100000
  h_S_ : 0 < S_.numel
  bcast_S_S100000x1 : S_.BroadcastsInDim S100000x1 (![] : Fin 0 → Fin S100000x1.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x256_S256x128_S100000x128_1_0_0_1_n_n_wf : DotDims.WF S100000x256 S256x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.KRun.lean ====
/-
  The kernel program's run with its result buffer named.

  The program is two tiled stages with a stretch of host operations before each. Its run leaves every unscoped buffer
  at the contents obtained by folding the program over the launch memory: a host stretch applies its operations, a
  tiled stage replaces each of its arrays by what its write-backs leave. So the result buffer ends at the last fold
  read at that buffer, and each argument as launched.
-/
import proofs.«113638_j23837068493398_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the argument arrays as launched. -/
theorem run_named : θ_run defs (onTc (τ := τ) (main (F := F))) ⟨m, fun _ => 0, ρ⟩ (fun r => ∀ c : Dev nD,
      r.2.mem ((c.tc : Thread nD τ).loc main_v32) = W4 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v32 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.RunValue

end
-- ==== Proof.Spec.lean ====
/-
  The mathematics of the two dense stages, over the extended reals, index by index, with no program in sight.

  A node's hidden row is `relu (x · Wlᵀ + bl)`; its output row is the pre-normalisation row
  `relu (x · Wr[:, :128]ᵀ + a · Wr[:, 128:]ᵀ + br)` (`a` the aggregated neighbour row) scaled by the reciprocal of
  `max ‖row‖₂ ε`, ε the f32 nearest 1e-12. Two spellings of each stage are stated: over the raw weight matrices
  (`hidden`, `preNorm`) and over the re-laid operands a tiled stage is handed — weights already transposed to
  [in, out], the bias a [1, out] row — on any number of rows (`affineRelu`, `twoAffineRelu`), because a block of rows
  of the result is the same function of the same block of rows of the inputs.

  The laws that join the two programs: a sum over 256 contraction indices is the sum over the first 128 plus the sum
  over the last 128 (addition on the extended reals is commutative and associative, so no finiteness is needed), and
  a product with the reciprocal `1 / m` is the quotient by `m` whenever `m ≠ 0`, which `m = max s ε ≥ ε > 0` is.
-/
import Idealize.ShloMosaic.Lib.IdealHost

noncomputable section

namespace Cert.Spec

open Idealize.ShloMosaic Idealize.ShloMosaic.ValueIdx
open scoped BigOperators

/-- An f32 matrix at the ideal values. -/
abbrev Mat (r c : Nat) : Type := FVec Ideal ⟨2, ![r, c]⟩ .f32
/-- An f32 vector at the ideal values. -/
abbrev Row (n : Nat) : Type := FVec Ideal ⟨1, ![n]⟩ .f32

/-- The lower clamp of a row's norm: the f32 nearest 1e-12. -/
abbrev normFloor : EReal := Ideal.ofBits .f32 0x2B8CBCCC#32

/-- The clamp is a positive real. -/
theorem normFloor_pos : 0 < normFloor := by
  unfold normFloor
  simp [Ideal.ofBits, Ideal.ieee, -EReal.coe_mul]

/-- A row's norm clamped from below by the floor is not zero. -/
theorem max_normFloor_ne_zero (s : EReal) : max s normFloor ≠ 0 :=
  (lt_of_lt_of_le normFloor_pos (le_max_right s normFloor)).ne'

/-! ## The stages over the re-laid operands, on any number of rows -/

/-- `relu (x · wt + b)`: the weights [in, out], the bias a [1, out] row. -/
def affineRelu {n : Nat} (x : Mat n 128) (wt : Mat 128 128) (b : Mat 1 128) : Mat n 128 :=
  fun i => max ((∑ k : Fin 128, x (ix2 (i 0) k) * wt (ix2 k (i 1))) + b (ix2 0 (i 1))) 0

/-- `relu (x · wx + a · wa + b)`: two products into one row. -/
def twoAffineRelu {n : Nat} (x a : Mat n 128) (wx wa : Mat 128 128) (b : Mat 1 128) : Mat n 128 :=
  fun i => max (((∑ k : Fin 128, x (ix2 (i 0) k) * wx (ix2 k (i 1))) + (∑ k : Fin 128, a (ix2 (i 0) k) * wa (ix2 k (i 1))))
    + b (ix2 0 (i 1))) 0

/-- Each row times the reciprocal of its clamped Euclidean norm. -/
def rowNormalize {n : Nat} (o : Mat n 128) : Mat n 128 :=
  fun i => o i * Ideal.div 1 (max (Ideal.sqrt (∑ j : Fin 128, o (ix2 (i 0) j) * o (ix2 (i 0) j))) normFloor)

/-! ## The stages over the raw arguments -/

/-- The hidden features `relu (x · Wlᵀ + bl)`. -/
def hidden (x : Mat 100000 128) (Wl : Mat 128 128) (bl : Row 128) : Mat 100000 128 :=
  fun i => max ((∑ k : Fin 128, x (ix2 (i 0) k) * Wl (ix2 (i 1) k)) + bl (ix1 (i 1))) 0

/-- The output before normalisation, `relu ([x, a] · Wrᵀ + br)` with the contraction split at column 128. -/
def preNorm (x a : Mat 100000 128) (Wr : Mat 128 256) (br : Row 128) : Mat 100000 128 :=
  fun i => max (((∑ k : Fin 128, x (ix2 (i 0) k) * Wr (ix2 (i 1) ⟨k.val, by omega⟩))
      + (∑ k : Fin 128, a (ix2 (i 0) k) * Wr (ix2 (i 1) ⟨128 + k.val, by omega⟩)))
    + br (ix1 (i 1))) 0

/-! ## The two laws -/

/-- A sum over 256 indices is the sum over the first 128 plus the sum over the last 128. -/
theorem sum_split_256 (f : Fin 256 → EReal) :
    ∑ k : Fin 256, f k = (∑ k : Fin 128, f ⟨k.val, by omega⟩) + (∑ k : Fin 128, f ⟨128 + k.val, by omega⟩) :=
  Fin.sum_univ_add (a := 128) (b := 128) f

/-- The quotient by a clamped norm is the product with its reciprocal. -/
theorem div_clamped (o s : EReal) : Ideal.div o (max s normFloor) = o * Ideal.div 1 (max s normFloor) :=
  (Idealize.ShloMosaic.Ideal.mul_one_div (max_normFloor_ne_zero s)).symm

end Cert.Spec

end
-- ==== Proof.KPayload.lean ====
/-
  What each tiled stage stores, as a function of the blocks it loads, at the ideal values.

  The first stage's stored block is `relu (x · wt + b)` of its row block `x`, and the second's is the row-normalised
  `relu (x · wx + a · wa + b)`: the matrix products into a zero accumulator are plain sums over the 128 contraction
  indices, the narrowing to bf16 is the identity at the ideal values, the bias row is broadcast down the rows, the
  lane sum of squares is a sum over the 128 columns, and the keep-dims column is broadcast back along the row.
-/
import proofs.«113638_j23837068493398_1_alg».proof.Proof.Gen.KernelIdeal.Skeleton
import proofs.«113638_j23837068493398_1_alg».proof.Proof.Spec
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx Cert.KernelIdeal Cert.KernelIdeal.Gen Cert.Spec
open scoped BigOperators

/-- The dot's operand indices, coordinate by coordinate: the left operand is read at (row, contraction index), the
    right at (contraction index, column). -/
theorem lhs_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c
theorem rhs_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c
theorem rhs_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

theorem lhs_at (p : Fin 5000) (q : Fin 128) (k : Fin 128) :
    dot_S5000x128_S128x128_S5000x128_1_0_0_1_n_n.lhsIdx (ix2 p q)
      ((contrEquiv1 dot_S5000x128_S128x128_S5000x128_1_0_0_1_n_n 128 rfl rfl).symm k) = ix2 p k := by
  have hk := contrEquiv1_symm_val dot_S5000x128_S128x128_S5000x128_1_0_0_1_n_n 128 rfl rfl k
  exact funext fun a => Fin.ext (by
    match a with
    | ⟨0, _⟩ => exact lhs_0 _ _
    | ⟨1, _⟩ => exact (lhs_1 _ _).trans hk)

theorem rhs_at (p : Fin 5000) (q : Fin 128) (k : Fin 128) :
    dot_S5000x128_S128x128_S5000x128_1_0_0_1_n_n.rhsIdx (ix2 p q)
      ((contrEquiv1 dot_S5000x128_S128x128_S5000x128_1_0_0_1_n_n 128 rfl rfl).symm k) = ix2 k q := by
  have hk := contrEquiv1_symm_val dot_S5000x128_S128x128_S5000x128_1_0_0_1_n_n 128 rfl rfl k
  exact funext fun a => Fin.ext (by
    match a with
    | ⟨0, _⟩ => exact (rhs_0 _ _).trans hk
    | ⟨1, _⟩ => exact rhs_1 _ _)

/-- A product of a row block with a weight matrix into the zero accumulator, at (p, q): the sum over the 128
    contraction indices. -/
theorem matmul_at {φ₁ φ₂ : FTy} (l : FVec Ideal S5000x128 φ₁) (r : FVec Ideal S128x128 φ₂) (p : Fin 5000) (q : Fin 128) :
    matmul dot_S5000x128_S128x128_S5000x128_1_0_0_1_n_n none l r (constant S5000x128 .f32 0x00000000#32) (ix2 p q)
      = ∑ k : Fin 128, l (ix2 p k) * r (ix2 k q) := by
  refine (Ideal.matmul_constant_zero_apply _ none l r (ix2 p q)).trans ?_
  rw [← Equiv.sum_comp (contrEquiv1 dot_S5000x128_S128x128_S5000x128_1_0_0_1_n_n 128 rfl rfl).symm]
  refine Finset.sum_congr rfl fun k _ => ?_
  rw [lhs_at, rhs_at]

/-- The bias row broadcast down the rows, at (p, q): the row's entry q. -/
theorem biasRow_at (b : FVec Ideal S1x128 .f32) (p : Fin 5000) (q : Fin 128) :
    broadcastTo S5000x128 (shapeCast S1x128 b shapeCasts_S1x128_S1x128) broadcasts_S1x128_S5000x128 (ix2 p q)
      = b (ix2 0 q) := by
  rw [shapeCast_self]
  refine broadcastTo_apply b _ (ix2 p q) (ix2 0 q) fun a => ?_
  match a with
  | ⟨0, _⟩ => rfl
  | ⟨1, _⟩ => rfl

/-- A column vector re-cast to a keep-dims column, at (p, 0): the vector's entry p. -/
theorem keepdims_at (v : FVec Ideal S5000 .f32) (p : Fin 5000) :
    shapeCast S5000x1 v shapeCasts_S5000_S5000x1 (ix2 p 0) = v (ix1 p) := by
  refine shapeCast_apply v _ (ix2 p 0) (ix1 p) ?_
  rw [Shape.rowMajor_val_two, Shape.rowMajor_val_one]
  simp

/-- A keep-dims column broadcast along the row, at (p, q): the column's entry p. -/
theorem colBroadcast_at (v : FVec Ideal S5000x1 .f32) (p : Fin 5000) (q : Fin 128) :
    broadcastTo S5000x128 v broadcasts_S5000x1_S5000x128 (ix2 p q) = v (ix2 p 0) := by
  refine broadcastTo_apply v _ (ix2 p q) (ix2 p 0) fun a => ?_
  match a with
  | ⟨0, _⟩ => rfl
  | ⟨1, _⟩ => rfl

/-- The lane sum at row p: the sum over the 128 columns. -/
theorem laneSum_at (src : FVec Ideal S5000x128 .f32) (hacc : (0x00000000#32 : BitVec 32) = 0x00000000#32) (p : Fin 5000) :
    multiReduction .add [1] S5000 src 0x00000000#32 reduces_S5000x128_S5000 (.inl rfl) hacc (ix1 p)
      = ∑ k : Fin 128, src (ix2 p k) := by
  refine (Ideal.multiReduction_add_single src 0x00000000#32 reduces_S5000x128_S5000 (.inl rfl) hacc (ix1 p)).trans ?_
  refine Finset.sum_congr rfl fun k _ => congrArg src (funext fun a => Fin.ext ?_)
  match a with
  | ⟨0, _⟩ => rfl
  | ⟨1, _⟩ => rfl

/-- The second stage's value before normalisation, as printed: two products into zero accumulators, added, plus the
    broadcast bias row, clamped below at zero. -/
def preBlock (x0 x1 : Vec Ideal S5000x128 .f32) (w0 w1 : Vec Ideal S128x128 .f32) (b : Vec Ideal S1x128 .f32) :
    FVec Ideal S5000x128 .f32 :=
  maximumf (addf (addf
      (matmul dot_S5000x128_S128x128_S5000x128_1_0_0_1_n_n none (truncf .bf16 x0 bitsLt_bf16_f32)
        (truncf .bf16 (shapeCast S128x128 w0 shapeCasts_S128x128_S128x128) bitsLt_bf16_f32) (constant S5000x128 .f32 0x00000000#32))
      (matmul dot_S5000x128_S128x128_S5000x128_1_0_0_1_n_n none
        (truncf .bf16 (shapeCast S5000x128 x1 shapeCasts_S5000x128_S5000x128) bitsLt_bf16_f32)
        (truncf .bf16 (shapeCast S128x128 w1 shapeCasts_S128x128_S128x128) bitsLt_bf16_f32) (constant S5000x128 .f32 0x00000000#32)))
      (broadcastTo S5000x128 (shapeCast S1x128 b shapeCasts_S1x128_S1x128) broadcasts_S1x128_S5000x128))
    (broadcast S5000x128 (Scalar.ofBits .f32 0x00000000#32))

/-- The keep-dims column of reciprocals, as printed: one over the clamped root of the lane sum of squares. -/
def recipNorm (o : FVec Ideal S5000x128 .f32) : FVec Ideal S5000x1 .f32 :=
  divf (broadcast S5000x1 (Scalar.ofBits .f32 0x3F800000#32))
    (maximumf (sqrt (shapeCast S5000x1
        (multiReduction .add [1] S5000 (mulf o o) 0x00000000#32 reduces_S5000x128_S5000 (.inl rfl) rfl) shapeCasts_S5000_S5000x1))
      (broadcast S5000x1 (Scalar.ofBits .f32 0x2B8CBCCC#32)))

/-- The second stage's normalisation, as printed: the value times the broadcast column of reciprocals. -/
def normTail (o : FVec Ideal S5000x128 .f32) : FVec Ideal S5000x128 .f32 :=
  mulf o (broadcastTo S5000x128 (recipNorm o) broadcasts_S5000x1_S5000x128)

/-- The second stage's stored value is the normalisation of its pre-normalisation value. -/
theorem pay1_split (x0 x1 : Vec Ideal S5000x128 .f32) (w0 w1 : Vec Ideal S128x128 .f32) (b : Vec Ideal S1x128 .f32) :
    k1_pay1 (F := Ideal) x0 x1 w0 w1 b = normTail (preBlock x0 x1 w0 w1 b) := rfl

/-- The first stage stores `relu (x · wt + b)` of its blocks. -/
theorem hiddenBlock (x : Vec Ideal S5000x128 .f32) (w : Vec Ideal S128x128 .f32) (b : Vec Ideal S1x128 .f32) :
    k0_pay1 (F := Ideal) x w b = affineRelu (n := 5000) x w b := by
  funext j
  obtain ⟨p, q, rfl⟩ : ∃ (p : Fin 5000) (q : Fin 128), j = ix2 p q := ⟨j 0, j 1, eq_ix2 j⟩
  unfold k0_pay1
  rw [shapeCast_self]
  refine (congrArg₂ max (congrArg₂ (· + ·) (matmul_at _ _ p q) (biasRow_at b p q)) Ideal.ofBits_zero_f32).trans ?_
  rfl

/-- Before normalisation the second stage holds `relu (x · wx + a · wa + b)` of its blocks. -/
theorem preBlock_eq (x0 x1 : Vec Ideal S5000x128 .f32) (w0 w1 : Vec Ideal S128x128 .f32) (b : Vec Ideal S1x128 .f32) :
    preBlock x0 x1 w0 w1 b = twoAffineRelu (n := 5000) x0 x1 w0 w1 b := by
  funext j
  obtain ⟨p, q, rfl⟩ : ∃ (p : Fin 5000) (q : Fin 128), j = ix2 p q := ⟨j 0, j 1, eq_ix2 j⟩
  unfold preBlock
  rw [shapeCast_self w0, shapeCast_self x1, shapeCast_self w1]
  refine (congrArg₂ max (congrArg₂ (· + ·) (congrArg₂ (· + ·) (matmul_at _ _ p q) (matmul_at _ _ p q)) (biasRow_at b p q))
    Ideal.ofBits_zero_f32).trans ?_
  rfl

/-- The column of reciprocals at row p: one over the clamped Euclidean norm of row p. -/
theorem recipNorm_at (o : FVec Ideal S5000x128 .f32) (p : Fin 5000) :
    recipNorm o (ix2 p 0) = Ideal.div 1 (max (Ideal.sqrt (∑ k : Fin 128, o (ix2 p k) * o (ix2 p k))) normFloor) :=
  congrArg₂ Ideal.div Ideal.ofBits_one_f32
    (congrArg (max · normFloor) (congrArg Ideal.sqrt ((keepdims_at _ p).trans (laneSum_at (mulf o o) rfl p))))

/-- The printed normalisation is each row times the reciprocal of its clamped Euclidean norm. -/
theorem normTail_eq (o : FVec Ideal S5000x128 .f32) : normTail o = rowNormalize (n := 5000) o := by
  funext j
  obtain ⟨p, q, rfl⟩ : ∃ (p : Fin 5000) (q : Fin 128), j = ix2 p q := ⟨j 0, j 1, eq_ix2 j⟩
  exact congrArg (o (ix2 p q) * ·) ((colBroadcast_at (recipNorm o) p q).trans (recipNorm_at o p))

/-- The second stage stores the row-normalised `relu (x · wx + a · wa + b)` of its blocks. -/
theorem outBlock (x0 x1 : Vec Ideal S5000x128 .f32) (w0 w1 : Vec Ideal S128x128 .f32) (b : Vec Ideal S1x128 .f32) :
    k1_pay1 (F := Ideal) x0 x1 w0 w1 b = rowNormalize (n := 5000) (twoAffineRelu (n := 5000) x0 x1 w0 w1 b) := by
  rw [pay1_split, preBlock_eq, normTail_eq]

end Cert.KernelIdeal.Payload

end
-- ==== Proof.KStage0.lean ====
/-
  The first tiled stage as ONE function of its arrays.

  The stage walks 20 blocks of 5000 rows. At block t it loads rows 5000·t … 5000·t + 4999 of `x`, the whole transposed
  weight matrix and the whole bias row, and writes back rows 5000·t … 5000·t + 4999 of the result. A row of
  `relu (x · wt + b)` depends on the same row of `x` only, so what block t writes back is block t of
  `affineRelu x wt b` of the whole arrays; the 20 blocks cover every row (row r lies in block r / 5000), so the
  result array ends holding exactly that function of the arrays as the stage found them.
-/
import proofs.«113638_j23837068493398_1_alg».proof.Proof.Gen.KernelIdeal.Frame
import proofs.«113638_j23837068493398_1_alg».proof.Proof.KPayload
import Idealize.ShloMosaic.Lib.Pipeline.Value

set_option maxRecDepth 16384

noncomputable section

namespace Cert.KernelIdeal.Stage0

open Idealize.ShloMosaic Idealize.ShloMosaic.TcCoe Idealize.ShloMosaic.ValueIdx Idealize.SL.Sem
open Idealize.ShloMosaic.Pipeline (Dat)
open Cert.KernelIdeal Cert.KernelIdeal.Gen Cert.Spec
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed block indices, decided over the grid: the row windows move with the grid point, the weight and bias
    windows stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Block t of `x` is rows 5000·t … of the array. -/
theorem x_block (c : Dev nD) (t : Fin cfg0.N) (y : S5000x128.Idx) (i : S100000x128.Idx)
    (h0 : (i 0).val = 5000 * t.val + (y 0).val) (h1 : (i 1).val = (y 1).val) :
    (iblk0 V c 0 t : Vec Ideal S5000x128 .f32) y = (V c main_arg0 : S100000x128.Idx → Elt Ideal .f32) i := by
  obtain ⟨e0, e1, -⟩ := idx_facts t
  unfold iblk0
  rw [View.read_apply]
  show V c main_arg0 _ = V c main_arg0 i
  congr 1
  funext a
  apply Fin.ext
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- The weight window's one block is the whole matrix. -/
theorem w_block (c : Dev nD) (t : Fin cfg0.N) (y : S128x128.Idx) :
    (iblk0 V c 1 t : Vec Ideal S128x128 .f32) y = (V c main_v4 : S128x128.Idx → Elt Ideal .f32) y := by
  obtain ⟨-, -, e2, e3, -⟩ := idx_facts t
  unfold iblk0
  rw [View.read_apply]
  show V c main_v4 _ = V c main_v4 y
  congr 1
  funext a
  apply Fin.ext
  match a with
  | ⟨0, _⟩ => show win0_1.index t 0 * 128 + 1 * (y 0).val = (y 0).val; rw [e2]; omega
  | ⟨1, _⟩ => show win0_1.index t 1 * 128 + 1 * (y 1).val = (y 1).val; rw [e3]; omega

/-- The bias window's one block is the whole row. -/
theorem b_block (c : Dev nD) (t : Fin cfg0.N) (y : S1x128.Idx) :
    (iblk0 V c 2 t : Vec Ideal S1x128 .f32) y = (V c main_v5 : S1x128.Idx → Elt Ideal .f32) y := by
  obtain ⟨-, -, -, -, e4, e5, -⟩ := idx_facts t
  unfold iblk0
  rw [View.read_apply]
  show V c main_v5 _ = V c main_v5 y
  congr 1
  funext a
  apply Fin.ext
  match a with
  | ⟨0, _⟩ => show win0_2.index t 0 * 1 + 1 * (y 0).val = (y 0).val; rw [e4]; omega
  | ⟨1, _⟩ => show win0_2.index t 1 * 128 + 1 * (y 1).val = (y 1).val; rw [e5]; omega

/-- What point t writes back is block t of `affineRelu` of the arrays as the stage finds them. -/
theorem flushed_eq (c : Dev nD) (t : Fin cfg0.N) :
    (dat0 V c).flushed 3 t = ((cfg0.win 3).blk t).view.read (Elt Ideal)
      (affineRelu (n := 100000) (V c main_arg0) (V c main_v4) (V c main_v5)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  rw [Payload.hiddenBlock]
  obtain ⟨-, -, -, -, -, -, e6, e7⟩ := idx_facts t
  funext j
  show affineRelu (n := 5000) (iblk0 V c 0 t) (iblk0 V c 1 t) (iblk0 V c 2 t) j
    = affineRelu (n := 100000) (V c main_arg0) (V c main_v4) (V c main_v5) (((cfg0.win 3).blk t).view.emb j)
  have r0 : ((((cfg0.win 3).blk t).view.emb j) 0).val = 5000 * t.val + (j 0).val := by
    show win0_3.index t 0 * 5000 + 1 * (j 0).val = _; rw [e6]; omega
  have r1 : ((((cfg0.win 3).blk t).view.emb j) 1).val = (j 1).val := by
    show win0_3.index t 1 * 128 + 1 * (j 1).val = _; rw [e7]; omega
  unfold affineRelu
  refine congrArg₂ max (congrArg₂ (· + ·) (Finset.sum_congr rfl fun k _ => congrArg₂ (· * ·) ?_ ?_) ?_) rfl
  · exact x_block V c t _ _ r0 rfl
  · exact (w_block V c t _).trans (congrArg (V c main_v4) (funext fun a => Fin.ext (by
      match a with
      | ⟨0, _⟩ => rfl
      | ⟨1, _⟩ => exact r1.symm)))
  · exact (b_block V c t _).trans (congrArg (V c main_v5) (funext fun a => Fin.ext (by
      match a with
      | ⟨0, _⟩ => rfl
      | ⟨1, _⟩ => exact r1.symm)))

/-- An index of the result array is in point t's block iff each coordinate is in the block's range. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v6).slice (win0_3.rect t)).set ↔ _
  rw [View.set_slice_whole, Rect.mem_set_unit]
  exact Iff.rfl

/-- Every row lies in some point's block: row r in block r / 5000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  have ht : (i 0).val / 5000 < cfg0.N := by rw [hN]; omega
  refine ⟨⟨(i 0).val / 5000, ht⟩, flush0_3 _, ?_⟩
  rw [mem_blk]
  obtain ⟨-, -, -, -, -, -, e6, e7⟩ := idx_facts ⟨(i 0).val / 5000, ht⟩
  intro a
  match a with
  | ⟨0, _⟩ =>
    show win0_3.index ⟨(i 0).val / 5000, ht⟩ 0 * 5000 ≤ (i 0).val ∧ (i 0).val < win0_3.index ⟨(i 0).val / 5000, ht⟩ 0 * 5000 + 5000
    rw [e6]; show (i 0).val / 5000 * 5000 ≤ (i 0).val ∧ (i 0).val < (i 0).val / 5000 * 5000 + 5000; omega
  | ⟨1, _⟩ =>
    show win0_3.index ⟨(i 0).val / 5000, ht⟩ 1 * 128 ≤ (i 1).val ∧ (i 1).val < win0_3.index ⟨(i 0).val / 5000, ht⟩ 1 * 128 + 128
    rw [e7]; omega

/-- The result array after the stage: `affineRelu` of the arrays as the stage finds them. -/
theorem final (c : Dev nD) :
    (dat0 V c).arrAt 3 cfg0.N = affineRelu (n := 100000) (V c main_arg0) (V c main_v4) (V c main_v5) :=
  (dat0 V c).arrAt_eq_of_cover 3 _ (fun t _ => flushed_eq V c t) cover

end Cert.KernelIdeal.Stage0

end
-- ==== Proof.KStage1.lean ====
/-
  The second tiled stage as ONE function of its arrays.

  The stage walks 20 blocks of 5000 rows. At block t it loads rows 5000·t … 5000·t + 4999 of `x` and of the aggregated
  features `a`, the two whole weight matrices and the whole bias row, and writes back the same rows of the result. A row
  of the row-normalised `relu (x · wx + a · wa + b)` depends on the same row of `x` and of `a` only — its norm is taken
  along that row — so what block t writes back is block t of that function of the whole arrays; the 20 blocks cover
  every row, so the result array ends holding it.
-/
import proofs.«113638_j23837068493398_1_alg».proof.Proof.Gen.KernelIdeal.Frame
import proofs.«113638_j23837068493398_1_alg».proof.Proof.KPayload
import Idealize.ShloMosaic.Lib.Pipeline.Value

set_option maxRecDepth 16384

noncomputable section

namespace Cert.KernelIdeal.Stage1

open Idealize.ShloMosaic Idealize.ShloMosaic.TcCoe Idealize.ShloMosaic.ValueIdx Idealize.SL.Sem
open Idealize.ShloMosaic.Pipeline (Dat)
open Cert.KernelIdeal Cert.KernelIdeal.Gen Cert.Spec
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The printed block indices, decided over the grid: the three row windows move with the grid point, the weight and
    bias windows stay at block (0, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Block t of `x` is rows 5000·t … of the array. -/
theorem x_block (c : Dev nD) (t : Fin cfg1.N) (y : S5000x128.Idx) (i : S100000x128.Idx)
    (h0 : (i 0).val = 5000 * t.val + (y 0).val) (h1 : (i 1).val = (y 1).val) :
    (iblk1 V c 0 t : Vec Ideal S5000x128 .f32) y = (V c main_arg0 : S100000x128.Idx → Elt Ideal .f32) i := by
  obtain ⟨e0, e1, -⟩ := idx_facts t
  unfold iblk1
  rw [View.read_apply]
  show V c main_arg0 _ = V c main_arg0 i
  congr 1
  funext a
  apply Fin.ext
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- Block t of the aggregated features is rows 5000·t … of the array. -/
theorem a_block (c : Dev nD) (t : Fin cfg1.N) (y : S5000x128.Idx) (i : S100000x128.Idx)
    (h0 : (i 0).val = 5000 * t.val + (y 0).val) (h1 : (i 1).val = (y 1).val) :
    (iblk1 V c 1 t : Vec Ideal S5000x128 .f32) y = (V c main_v27 : S100000x128.Idx → Elt Ideal .f32) i := by
  obtain ⟨-, -, e2, e3, -⟩ := idx_facts t
  unfold iblk1
  rw [View.read_apply]
  show V c main_v27 _ = V c main_v27 i
  congr 1
  funext a
  apply Fin.ext
  match a with
  | ⟨0, _⟩ => show win1_1.index t 0 * 5000 + 1 * (y 0).val = (i 0).val; rw [e2, h0]; omega
  | ⟨1, _⟩ => show win1_1.index t 1 * 128 + 1 * (y 1).val = (i 1).val; rw [e3, h1]; omega

/-- The first weight window's one block is the whole matrix. -/
theorem wx_block (c : Dev nD) (t : Fin cfg1.N) (y : S128x128.Idx) :
    (iblk1 V c 2 t : Vec Ideal S128x128 .f32) y = (V c main_v29 : S128x128.Idx → Elt Ideal .f32) y := by
  obtain ⟨-, -, -, -, e4, e5, -⟩ := idx_facts t
  unfold iblk1
  rw [View.read_apply]
  show V c main_v29 _ = V c main_v29 y
  congr 1
  funext a
  apply Fin.ext
  match a with
  | ⟨0, _⟩ => show win1_2.index t 0 * 128 + 1 * (y 0).val = (y 0).val; rw [e4]; omega
  | ⟨1, _⟩ => show win1_2.index t 1 * 128 + 1 * (y 1).val = (y 1).val; rw [e5]; omega

/-- The second weight window's one block is the whole matrix. -/
theorem wa_block (c : Dev nD) (t : Fin cfg1.N) (y : S128x128.Idx) :
    (iblk1 V c 3 t : Vec Ideal S128x128 .f32) y = (V c main_v30 : S128x128.Idx → Elt Ideal .f32) y := by
  obtain ⟨-, -, -, -, -, -, e6, e7, -⟩ := idx_facts t
  unfold iblk1
  rw [View.read_apply]
  show V c main_v30 _ = V c main_v30 y
  congr 1
  funext a
  apply Fin.ext
  match a with
  | ⟨0, _⟩ => show win1_3.index t 0 * 128 + 1 * (y 0).val = (y 0).val; rw [e6]; omega
  | ⟨1, _⟩ => show win1_3.index t 1 * 128 + 1 * (y 1).val = (y 1).val; rw [e7]; omega

/-- The bias window's one block is the whole row. -/
theorem b_block (c : Dev nD) (t : Fin cfg1.N) (y : S1x128.Idx) :
    (iblk1 V c 4 t : Vec Ideal S1x128 .f32) y = (V c main_v31 : S1x128.Idx → Elt Ideal .f32) y := by
  obtain ⟨-, -, -, -, -, -, -, -, e8, e9, -⟩ := idx_facts t
  unfold iblk1
  rw [View.read_apply]
  show V c main_v31 _ = V c main_v31 y
  congr 1
  funext a
  apply Fin.ext
  match a with
  | ⟨0, _⟩ => show win1_4.index t 0 * 1 + 1 * (y 0).val = (y 0).val; rw [e8]; omega
  | ⟨1, _⟩ => show win1_4.index t 1 * 128 + 1 * (y 1).val = (y 1).val; rw [e9]; omega

/-- The pre-normalisation value of a block row is that of the array row it comes from. -/
theorem pre_block (c : Dev nD) (t : Fin cfg1.N) (y : S5000x128.Idx) (i : S100000x128.Idx)
    (h0 : (i 0).val = 5000 * t.val + (y 0).val) (h1 : (i 1).val = (y 1).val) :
    twoAffineRelu (n := 5000) (iblk1 V c 0 t) (iblk1 V c 1 t) (iblk1 V c 2 t) (iblk1 V c 3 t) (iblk1 V c 4 t) y
      = twoAffineRelu (n := 100000) (V c main_arg0) (V c main_v27) (V c main_v29) (V c main_v30) (V c main_v31) i := by
  have hcol : ∀ (k : Fin 128), (ix2 k (y 1) : S128x128.Idx) = ix2 k (i 1) := fun k => funext fun a => Fin.ext (by
    match a with
    | ⟨0, _⟩ => rfl
    | ⟨1, _⟩ => exact h1.symm)
  have hb : (ix2 (0 : Fin 1) (y 1) : S1x128.Idx) = ix2 0 (i 1) := funext fun a => Fin.ext (by
    match a with
    | ⟨0, _⟩ => rfl
    | ⟨1, _⟩ => exact h1.symm)
  unfold twoAffineRelu
  refine congrArg₂ max (congrArg₂ (· + ·) (congrArg₂ (· + ·)
    (Finset.sum_congr rfl fun k _ => congrArg₂ (· * ·) ?_ ?_) (Finset.sum_congr rfl fun k _ => congrArg₂ (· * ·) ?_ ?_)) ?_) rfl
  · exact x_block V c t _ _ h0 rfl
  · exact (wx_block V c t _).trans (congrArg (V c main_v29) (hcol k))
  · exact a_block V c t _ _ h0 rfl
  · exact (wa_block V c t _).trans (congrArg (V c main_v30) (hcol k))
  · exact (b_block V c t _).trans (congrArg (V c main_v31) hb)

/-- What point t writes back is block t of the row-normalised `twoAffineRelu` of the arrays as the stage finds them. -/
theorem flushed_eq (c : Dev nD) (t : Fin cfg1.N) :
    (dat1 V c).flushed 5 t = ((cfg1.win 5).blk t).view.read (Elt Ideal)
      (rowNormalize (n := 100000)
        (twoAffineRelu (n := 100000) (V c main_arg0) (V c main_v27) (V c main_v29) (V c main_v30) (V c main_v31))) := by
  show (cfg1.win 5).cut (grid1.coords t) ((dat1 V c).after 5 t) = _
  rw [after1_5]
  unfold out1_5
  rw [View.canon_unit_zero hz]
  simp only [View.ld_unit_zero (S := S5000x128) hz, View.ld_unit_zero (S := S128x128) hz, View.ld_unit_zero (S := S1x128) hz]
  rw [Payload.outBlock]
  obtain ⟨-, -, -, -, -, -, -, -, -, -, e10, e11⟩ := idx_facts t
  funext j
  show rowNormalize (n := 5000)
      (twoAffineRelu (n := 5000) (iblk1 V c 0 t) (iblk1 V c 1 t) (iblk1 V c 2 t) (iblk1 V c 3 t) (iblk1 V c 4 t)) j
    = rowNormalize (n := 100000)
      (twoAffineRelu (n := 100000) (V c main_arg0) (V c main_v27) (V c main_v29) (V c main_v30) (V c main_v31))
      (((cfg1.win 5).blk t).view.emb j)
  have r0 : ((((cfg1.win 5).blk t).view.emb j) 0).val = 5000 * t.val + (j 0).val := by
    show win1_5.index t 0 * 5000 + 1 * (j 0).val = _; rw [e10]; omega
  have r1 : ((((cfg1.win 5).blk t).view.emb j) 1).val = (j 1).val := by
    show win1_5.index t 1 * 128 + 1 * (j 1).val = _; rw [e11]; omega
  unfold rowNormalize
  refine congrArg₂ (· * ·) (pre_block V c t _ _ r0 r1)
    (congrArg (Ideal.div 1) (congrArg (max · normFloor) (congrArg Ideal.sqrt (Finset.sum_congr rfl fun k _ => ?_))))
  have e := pre_block V c t (ix2 (j 0) k) (ix2 ((((cfg1.win 5).blk t).view.emb j) 0) k) r0 rfl
  exact congrArg₂ (· * ·) e e

/-- An index of the result array is in point t's block iff each coordinate is in the block's range. -/
theorem mem_blk (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v32).slice (win1_5.rect t)).set ↔ _
  rw [View.set_slice_whole, Rect.mem_set_unit]
  exact Iff.rfl

/-- Every row lies in some point's block: row r in block r / 5000. -/
theorem cover (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have ht : (i 0).val / 5000 < cfg1.N := by rw [hN]; omega
  refine ⟨⟨(i 0).val / 5000, ht⟩, flush1_5 _, ?_⟩
  rw [mem_blk]
  obtain ⟨-, -, -, -, -, -, -, -, -, -, e10, e11⟩ := idx_facts ⟨(i 0).val / 5000, ht⟩
  intro a
  match a with
  | ⟨0, _⟩ =>
    show win1_5.index ⟨(i 0).val / 5000, ht⟩ 0 * 5000 ≤ (i 0).val ∧ (i 0).val < win1_5.index ⟨(i 0).val / 5000, ht⟩ 0 * 5000 + 5000
    rw [e10]; show (i 0).val / 5000 * 5000 ≤ (i 0).val ∧ (i 0).val < (i 0).val / 5000 * 5000 + 5000; omega
  | ⟨1, _⟩ =>
    show win1_5.index ⟨(i 0).val / 5000, ht⟩ 1 * 128 ≤ (i 1).val ∧ (i 1).val < win1_5.index ⟨(i 0).val / 5000, ht⟩ 1 * 128 + 128
    rw [e11]; omega

/-- The result array after the stage: the row-normalised `twoAffineRelu` of the arrays as the stage finds them. -/
theorem final (c : Dev nD) :
    (dat1 V c).arrAt 5 cfg1.N = rowNormalize (n := 100000)
      (twoAffineRelu (n := 100000) (V c main_arg0) (V c main_v27) (V c main_v29) (V c main_v30) (V c main_v31)) :=
  (dat1 V c).arrAt_eq_of_cover 5 _ (fun t _ => flushed_eq V c t) cover

end Cert.KernelIdeal.Stage1

end
-- ==== Proof.KLayout.lean ====
/-
  The tiled stages' operands are re-laid copies of the arguments: the weights transposed (and, for the second stage,
  cut at row 128 of the transposed matrix into the part that multiplies `x` and the part that multiplies the
  aggregated features), the biases re-cast as [1, 128] rows. Read through those copies, the stages over re-laid operands
  are the stages over the raw arguments: entry (k, j) of a transposed matrix is entry (j, k) of the matrix, row 128 + k
  of the transposed [256, 128] matrix is column 128 + k, and entry (0, j) of the re-cast bias is entry j.
-/
import proofs.«113638_j23837068493398_1_alg».proof.KernelIdeal
import proofs.«113638_j23837068493398_1_alg».proof.Proof.Gen.KernelIdeal
import proofs.«113638_j23837068493398_1_alg».proof.Proof.Spec
import Idealize.ShloMosaic.Lib.Pipeline.Value
import Idealize.ShloMosaic.Lib.ValueLayout

noncomputable section

namespace Cert.KernelIdeal.Layout

open Idealize.ShloMosaic Idealize.ShloMosaic.ValueIdx Cert.KernelIdeal Cert.KernelIdeal.Gen Cert.Spec
open scoped BigOperators

/-- The first stage over the transposed weights and the re-cast bias is the hidden layer over the raw arguments. -/
theorem hidden_of_relaid (x : Mat 100000 128) (Wl : Mat 128 128) (bl : Row 128) :
    affineRelu (n := 100000) x (transpose S128x128 [1, 0] Wl transposes_S128x128_S128x128_1_0)
        (shapeCast S1x128 bl shapeCasts_S128_S1x128)
      = Cert.Spec.hidden x Wl bl := by
  funext i
  unfold affineRelu Cert.Spec.hidden
  refine congrArg₂ max (congrArg₂ (· + ·) (Finset.sum_congr rfl fun k _ => congrArg₂ (· * ·) rfl ?_) ?_) rfl
  · exact transpose_ix2_apply Wl _ k (i 1)
  · exact shapeCast_a_1a_apply bl _ 0 (i 1)

/-- The second stage over the two halves of the transposed weights and the re-cast bias is the pre-normalisation
    layer over the raw arguments. -/
theorem preNorm_of_relaid (x a : Mat 100000 128) (Wr : Mat 128 256) (br : Row 128) :
    twoAffineRelu (n := 100000) x a
        (extractStridedSlice S128x128 ![0, 0] (transpose S256x128 [1, 0] Wr transposes_S128x256_S256x128_1_0) slices_S256x128_S128x128_0_0)
        (extractStridedSlice S128x128 ![128, 0] (transpose S256x128 [1, 0] Wr transposes_S128x256_S256x128_1_0) slices_S256x128_S128x128_128_0)
        (shapeCast S1x128 br shapeCasts_S128_S1x128)
      = preNorm x a Wr br := by
  funext i
  unfold twoAffineRelu preNorm
  refine congrArg₂ max (congrArg₂ (· + ·) (congrArg₂ (· + ·)
    (Finset.sum_congr rfl fun k _ => congrArg₂ (· * ·) rfl ?_) (Finset.sum_congr rfl fun k _ => congrArg₂ (· * ·) rfl ?_)) ?_) rfl
  · refine (slice2_axis0_apply 0 _ _ k (i 1) ⟨k.val, by omega⟩ (by simp)).trans ?_
    exact transpose_ix2_apply Wr _ ⟨k.val, by omega⟩ (i 1)
  · refine (slice2_axis0_apply 128 _ _ k (i 1) ⟨128 + k.val, by omega⟩ rfl).trans ?_
    exact transpose_ix2_apply Wr _ ⟨128 + k.val, by omega⟩ (i 1)
  · exact shapeCast_a_1a_apply br _ 0 (i 1)

end Cert.KernelIdeal.Layout

end
-- ==== Proof.KValue.lean ====
/-
  The kernel program's result as ONE function of its arguments, at the ideal values.

  Folding the program over the launch memory: the first host stretch transposes `Wl` and re-casts `bl`; the first
  tiled stage leaves `hidden x Wl bl` in its result array; the second host stretch gathers the hidden rows along the
  edges' sources, weights them, scatter-adds them at the edges' destinations and divides by one plus the scatter-added
  weights (`aggregate`, kept as one opaque function of the hidden features, the edge list and the weights), and cuts the
  transposed `Wr` in two; the second tiled stage leaves the row-normalised `preNorm` of `x` and the aggregated
  features in the program's result.
-/
import proofs.«113638_j23837068493398_1_alg».proof.Proof.KRun
import proofs.«113638_j23837068493398_1_alg».proof.Proof.KStage0
import proofs.«113638_j23837068493398_1_alg».proof.Proof.KStage1
import proofs.«113638_j23837068493398_1_alg».proof.Proof.KLayout
import Idealize.ShloMosaic.Lib.StableHlo.Run

set_option maxRecDepth 16384

noncomputable section

namespace Cert.KernelIdeal.Whole

open Idealize.ShloMosaic Idealize.ShloMosaic.TcCoe Idealize.SL.Sem Idealize.ShloMosaic.StableHlo
open Idealize.ShloMosaic.Pipeline (Dat)
open Cert.KernelIdeal Cert.KernelIdeal.Gen Cert.Spec

/-- The edges' sources: row 0 of the edge list. -/
def sources (e : (⟨S2x1600000, .i32⟩ : BufTy).Contents (Elt Ideal)) : (⟨S1600000, .i32⟩ : BufTy).Contents (Elt Ideal) :=
  shapeCast _ (extractStridedSlice S1x1600000 ![0, 0] e slices_S2x1600000_S1x1600000_0_0) shapeCasts_S1x1600000_S1600000

/-- The edges' destinations: row 1 of the edge list. -/
def destinations (e : (⟨S2x1600000, .i32⟩ : BufTy).Contents (Elt Ideal)) : (⟨S1600000, .i32⟩ : BufTy).Contents (Elt Ideal) :=
  shapeCast _ (extractStridedSlice S1x1600000 ![1, 0] e slices_S2x1600000_S1x1600000_1_0) shapeCasts_S1x1600000_S1600000

/-- The weighted neighbour mean: hidden rows gathered along the sources (a negative source wrapped by the row count),
    scaled by the edge weights, scatter-added at the destinations, over one plus the scatter-added weights. -/
def aggregateOf (z : (⟨S100000x128, .f32⟩ : BufTy).Contents (Elt Ideal)) (src dst : (⟨S1600000, .i32⟩ : BufTy).Contents (Elt Ideal))
    (w : (⟨S1600000, .f32⟩ : BufTy).Contents (Elt Ideal)) : (⟨S100000x128, .f32⟩ : BufTy).Contents (Elt Ideal) :=
  Host.divf
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (mulf
        (Host.gather gather_S100000x128_S1600000x1_S1600000x128_1_0_n_n_0_1_1128 z
          (broadcastInDim S1600000x1 ![0] bcast_S1600000_S1600000x1_0
            (select (cmpi .slt src (broadcastInDim S1600000 ![] bcast_S_S1600000 (constantI S_ 32 0#32)))
              (addi src (broadcastInDim S1600000 ![] bcast_S_S1600000 (constantI S_ 32 100000#32))) src)))
        (broadcastInDim S1600000x128 ![0, 1] bcast_S1600000x1_S1600000x128_0_1
          (broadcastInDim S1600000x1 ![0] bcast_S1600000_S1600000x1_0 w))))
    (broadcastInDim S100000x128 ![0, 1] bcast_S100000x1_S100000x128_0_1
      (broadcastInDim S100000x1 ![0] bcast_S100000_S100000x1_0
        (addf
          (Host.scatterAdd scatter_S100000_S1600000x1_S1600000_n_0_0_1
            (broadcastInDim S100000 ![] bcast_S_S100000 (constant (F := Ideal) S_ .f32 0x00000000#32))
            (broadcastInDim S1600000x1 ![0] bcast_S1600000_S1600000x1_0 dst) w)
          (broadcastInDim S100000 ![] bcast_S_S100000 (constant (F := Ideal) S_ .f32 0x3F800000#32)))))

/-- The same over the edge list itself. -/
def aggregate (z : (⟨S100000x128, .f32⟩ : BufTy).Contents (Elt Ideal)) (e : (⟨S2x1600000, .i32⟩ : BufTy).Contents (Elt Ideal))
    (w : (⟨S1600000, .f32⟩ : BufTy).Contents (Elt Ideal)) : (⟨S100000x128, .f32⟩ : BufTy).Contents (Elt Ideal) :=
  aggregateOf z (sources e) (destinations e) w

variable (m : (ℓ : Loc nD τ sig) → Buf (Elt Ideal) ℓ) (ρ : Dev nD → PrngReg)

/-! ## The first host stretch -/

theorem entry0_x (c : Dev nD) : W1 m ρ c (Proc.devRef .tc main_arg0) = m ((c : Thread nD τ).loc main_arg0) := by
  show StableHlo.after hostOps0 (W0 m ρ c) (Proc.devRef .tc main_arg0) = _
  simp only [hostOps0]
  after_results
  try rfl

theorem entry0_wt (c : Dev nD) : W1 m ρ c (Proc.devRef .tc main_v4)
    = transpose S128x128 [1, 0] (m ((c : Thread nD τ).loc main_arg3)) transposes_S128x128_S128x128_1_0 := by
  show StableHlo.after hostOps0 (W0 m ρ c) (Proc.devRef .tc main_v4) = _
  simp only [hostOps0]
  after_results
  try rfl

theorem entry0_b (c : Dev nD) : W1 m ρ c (Proc.devRef .tc main_v5)
    = shapeCast S1x128 (m ((c : Thread nD τ).loc main_arg4)) shapeCasts_S128_S1x128 := by
  show StableHlo.after hostOps0 (W0 m ρ c) (Proc.devRef .tc main_v5) = _
  simp only [hostOps0]
  after_results
  try rfl

theorem first_src (c : Dev nD) : W1 m ρ c (Proc.devRef .tc main_v1) = sources (m ((c : Thread nD τ).loc main_arg1)) := by
  show StableHlo.after hostOps0 (W0 m ρ c) (Proc.devRef .tc main_v1) = _
  simp only [hostOps0]
  after_results
  try rfl

theorem first_dst (c : Dev nD) : W1 m ρ c (Proc.devRef .tc main_v3) = destinations (m ((c : Thread nD τ).loc main_arg1)) := by
  show StableHlo.after hostOps0 (W0 m ρ c) (Proc.devRef .tc main_v3) = _
  simp only [hostOps0]
  after_results
  try rfl

theorem first_w (c : Dev nD) : W1 m ρ c (Proc.devRef .tc main_arg2) = m ((c : Thread nD τ).loc main_arg2) := by
  show StableHlo.after hostOps0 (W0 m ρ c) (Proc.devRef .tc main_arg2) = _
  simp only [hostOps0]
  after_results
  try rfl

theorem first_Wr (c : Dev nD) : W1 m ρ c (Proc.devRef .tc main_arg5) = m ((c : Thread nD τ).loc main_arg5) := by
  show StableHlo.after hostOps0 (W0 m ρ c) (Proc.devRef .tc main_arg5) = _
  simp only [hostOps0]
  after_results
  try rfl

theorem first_br (c : Dev nD) : W1 m ρ c (Proc.devRef .tc main_arg6) = m ((c : Thread nD τ).loc main_arg6) := by
  show StableHlo.after hostOps0 (W0 m ρ c) (Proc.devRef .tc main_arg6) = _
  simp only [hostOps0]
  after_results
  try rfl

/-! ## The first tiled stage -/

/-- The first stage leaves the hidden features in its result array. -/
theorem stage0_result (c : Dev nD) : W2 m ρ c (Proc.devRef .tc main_v6)
    = Cert.Spec.hidden (m ((c : Thread nD τ).loc main_arg0)) (m ((c : Thread nD τ).loc main_arg3)) (m ((c : Thread nD τ).loc main_arg4)) := by
  refine (W2_arr m ρ c 3).trans ((Stage0.final (V1 m ρ) c).trans ?_)
  show affineRelu (n := 100000) (W1 m ρ c (Proc.devRef .tc main_arg0)) (W1 m ρ c (Proc.devRef .tc main_v4)) (W1 m ρ c (Proc.devRef .tc main_v5)) = _
  rw [entry0_x, entry0_wt, entry0_b]
  exact Layout.hidden_of_relaid _ _ _

/-- The first stage leaves `x` as it found it. -/
theorem stage0_x (c : Dev nD) : W2 m ρ c (Proc.devRef .tc main_arg0) = m ((c : Thread nD τ).loc main_arg0) :=
  (W2_arr m ρ c 0).trans ((((dat0 (V1 m ρ) c).arrAt_in 0 rfl _).trans (A_eq0 (V1 m ρ) c 0)).trans (entry0_x m ρ c))

theorem stage0_src (c : Dev nD) : W2 m ρ c (Proc.devRef .tc main_v1) = sources (m ((c : Thread nD τ).loc main_arg1)) :=
  (W2_of_ne m ρ c main_v1 (by decide)).trans (first_src m ρ c)
theorem stage0_dst (c : Dev nD) : W2 m ρ c (Proc.devRef .tc main_v3) = destinations (m ((c : Thread nD τ).loc main_arg1)) :=
  (W2_of_ne m ρ c main_v3 (by decide)).trans (first_dst m ρ c)
theorem stage0_w (c : Dev nD) : W2 m ρ c (Proc.devRef .tc main_arg2) = m ((c : Thread nD τ).loc main_arg2) :=
  (W2_of_ne m ρ c main_arg2 (by decide)).trans (first_w m ρ c)
theorem stage0_Wr (c : Dev nD) : W2 m ρ c (Proc.devRef .tc main_arg5) = m ((c : Thread nD τ).loc main_arg5) :=
  (W2_of_ne m ρ c main_arg5 (by decide)).trans (first_Wr m ρ c)
theorem stage0_br (c : Dev nD) : W2 m ρ c (Proc.devRef .tc main_arg6) = m ((c : Thread nD τ).loc main_arg6) :=
  (W2_of_ne m ρ c main_arg6 (by decide)).trans (first_br m ρ c)

/-! ## The second host stretch -/

theorem entry1_x (c : Dev nD) : W3 m ρ c (Proc.devRef .tc main_arg0) = m ((c : Thread nD τ).loc main_arg0) := by
  show StableHlo.after hostOps1 (W2 m ρ c) (Proc.devRef .tc main_arg0) = _
  simp only [hostOps1]
  after_results_simp
  exact stage0_x m ρ c

theorem entry1_agg (c : Dev nD) : W3 m ρ c (Proc.devRef .tc main_v27)
    = aggregate (Cert.Spec.hidden (m ((c : Thread nD τ).loc main_arg0)) (m ((c : Thread nD τ).loc main_arg3)) (m ((c : Thread nD τ).loc main_arg4)))
        (m ((c : Thread nD τ).loc main_arg1)) (m ((c : Thread nD τ).loc main_arg2)) := by
  show StableHlo.after hostOps1 (W2 m ρ c) (Proc.devRef .tc main_v27) = _
  simp only [hostOps1]
  after_results_simp
  rw [stage0_result, stage0_src, stage0_dst, stage0_w]
  unfold aggregate aggregateOf
  rfl

theorem entry1_wx (c : Dev nD) : W3 m ρ c (Proc.devRef .tc main_v29)
    = extractStridedSlice S128x128 ![0, 0] (transpose S256x128 [1, 0] (m ((c : Thread nD τ).loc main_arg5)) transposes_S128x256_S256x128_1_0) slices_S256x128_S128x128_0_0 := by
  show StableHlo.after hostOps1 (W2 m ρ c) (Proc.devRef .tc main_v29) = _
  simp only [hostOps1]
  after_results_simp
  rw [stage0_Wr]
  try rfl

theorem entry1_wa (c : Dev nD) : W3 m ρ c (Proc.devRef .tc main_v30)
    = extractStridedSlice S128x128 ![128, 0] (transpose S256x128 [1, 0] (m ((c : Thread nD τ).loc main_arg5)) transposes_S128x256_S256x128_1_0) slices_S256x128_S128x128_128_0 := by
  show StableHlo.after hostOps1 (W2 m ρ c) (Proc.devRef .tc main_v30) = _
  simp only [hostOps1]
  after_results_simp
  rw [stage0_Wr]
  try rfl

theorem entry1_b (c : Dev nD) : W3 m ρ c (Proc.devRef .tc main_v31)
    = shapeCast S1x128 (m ((c : Thread nD τ).loc main_arg6)) shapeCasts_S128_S1x128 := by
  show StableHlo.after hostOps1 (W2 m ρ c) (Proc.devRef .tc main_v31) = _
  simp only [hostOps1]
  after_results_simp
  rw [stage0_br]
  try rfl

/-! ## The second tiled stage, and the run -/

/-- The program's result buffer ends at the row-normalised pre-normalisation layer of `x` and the aggregated hidden
    features. -/
theorem result_eq (c : Dev nD) : W4 m ρ c (Proc.devRef .tc main_v32)
    = rowNormalize (n := 100000) (preNorm (m ((c : Thread nD τ).loc main_arg0))
        (aggregate (Cert.Spec.hidden (m ((c : Thread nD τ).loc main_arg0)) (m ((c : Thread nD τ).loc main_arg3)) (m ((c : Thread nD τ).loc main_arg4)))
          (m ((c : Thread nD τ).loc main_arg1)) (m ((c : Thread nD τ).loc main_arg2)))
        (m ((c : Thread nD τ).loc main_arg5)) (m ((c : Thread nD τ).loc main_arg6))) := by
  refine (W4_arr m ρ c 5).trans ((Stage1.final (V3 m ρ) c).trans ?_)
  show rowNormalize (n := 100000) (twoAffineRelu (n := 100000) (W3 m ρ c (Proc.devRef .tc main_arg0)) (W3 m ρ c (Proc.devRef .tc main_v27))
    (W3 m ρ c (Proc.devRef .tc main_v29)) (W3 m ρ c (Proc.devRef .tc main_v30)) (W3 m ρ c (Proc.devRef .tc main_v31))) = _
  rw [entry1_x, entry1_agg, entry1_wx, entry1_wa, entry1_b]
  exact congrArg (rowNormalize (n := 100000)) (Layout.preNorm_of_relaid _ _ _ _)

/-- The kernel program's run: the result at that function of the arguments, the arguments unchanged. -/
theorem run : θ_run defs (onTc (τ := τ) (main (F := Ideal))) ⟨m, fun _ => 0, ρ⟩ (fun r => ∀ c : Dev nD,
      r.2.mem ((c.tc : Thread nD τ).loc main_v32) = rowNormalize (n := 100000) (preNorm (m ((c : Thread nD τ).loc main_arg0))
        (aggregate (Cert.Spec.hidden (m ((c : Thread nD τ).loc main_arg0)) (m ((c : Thread nD τ).loc main_arg3)) (m ((c : Thread nD τ).loc main_arg4)))
          (m ((c : Thread nD τ).loc main_arg1)) (m ((c : Thread nD τ).loc main_arg2)))
        (m ((c : Thread nD τ).loc main_arg5)) (m ((c : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_eq m ρ c), (h c).2⟩) (RunValue.run_named m ρ)

end Cert.KernelIdeal.Whole

end
-- ==== Proof.RefValue.lean ====
/-
  What the reference computes, stage by stage, over the extended reals.

  The reference is three stages. The hidden features are `relu (x · Wlᵀ + bl)`: at (r, j) the sum over k of
  `x (r, k) · Wl (j, k)` plus `bl j`, clamped below at 0 (`hidden_eq`). The aggregated neighbour rows are an index-driven
  gather, weighting, scatter-add and division of the hidden features by the edge list and the edge weights: that
  stage is kept as ONE function `aggregate` of the hidden features, the edge list and the weights, never opened
  (`aggregate_eq`: the program's term is that function of the hidden stage, by unfolding names only). The output is
  `relu ([x, a] · Wrᵀ + br)` with each row divided by `max ‖row‖₂ ε`: the 256-term contraction over the joined row
  `[x, a]` splits at column 128 into the sum of `x (r, k) · Wr (j, k)` and the sum of `a (r, k) · Wr (j, 128 + k)`
  (`preNorm_eq`), the row sum of squares starts from the pattern 0, and the quotient by the clamped norm is the product
  with its reciprocal because the clamp keeps the divisor away from 0 (`out_eq`).
-/
import proofs.«113638_j23837068493398_1_alg».proof.Proof.Gen.ReferenceIdeal.Read
import proofs.«113638_j23837068493398_1_alg».proof.Proof.Spec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-! ## The hidden features -/

/-- The left operand of the first contraction is read at (r, k). -/
theorem lidx_v1 (i : S100000x128.Idx) (k : Fin 128) : lidx_main_v1 i k = ix2 (n0 := 100000) (n1 := 128) (i 0) k := by
  funext a; match a with | ⟨0, _⟩ => rfl | ⟨1, _⟩ => rfl

/-- The transposed weight at (k, j) is the weight at (j, k). -/
theorem ridx_v1 (i : S100000x128.Idx) (k : Fin 128) : idx_main_v0 (ridx_main_v1 i k) = ix2 (n0 := 128) (n1 := 128) (i 1) k := by
  funext a; match a with | ⟨0, _⟩ => rfl | ⟨1, _⟩ => rfl

/-- The bias broadcast down the rows is read at the column. -/
theorem bias_v3 (i : S100000x128.Idx) : idx_main_v2 (idx_main_v3 i) = ix1 (n := 128) (i 1) := by
  funext a; match a with | ⟨0, _⟩ => rfl

/-- The hidden stage is `relu (x · Wlᵀ + bl)`, index by index. -/
theorem hidden_eq (x0 : (⟨S100000x128, .f32⟩ : BufTy).Contents (Elt Ideal)) (x3 : (⟨S128x128, .f32⟩ : BufTy).Contents (Elt Ideal))
    (x4 : (⟨S128, .f32⟩ : BufTy).Contents (Elt Ideal)) :
    val_main_v5 (F := Ideal) x0 x3 x4 = Cert.Spec.hidden x0 x3 x4 := by
  funext i
  rw [val_main_v5_apply, val_main_v4_apply, val_main_v1_apply, val_main_v3_apply, val_main_v2_apply,
    val_main_call0_v0_apply, val_main_call0_cst_apply]
  simp only [val_main_v0_apply, lidx_v1, ridx_v1, bias_v3, Ideal.maximumf_def, Ideal.addf_def, Ideal.ofBits_def,
    Ideal.ofBits_zero_f32, Cert.Spec.hidden]

/-! ## The aggregated neighbour rows -/

/-- The neighbour aggregation as one function of the hidden features `z`, the edge list and the edge weights: rows of
    `z` gathered at the (wrapped) source nodes, scaled by the edge weights, added up at the target nodes, and divided
    by one plus the target's total weight. Its inside is never read. -/
def aggregate (z : (⟨S100000x128, .f32⟩ : BufTy).Contents (Elt Ideal)) (x1 : (⟨S2x1600000, .i32⟩ : BufTy).Contents (Elt Ideal))
    (x2 : (⟨S1600000, .f32⟩ : BufTy).Contents (Elt Ideal)) : (⟨S100000x128, .f32⟩ : BufTy).Contents (Elt Ideal) :=
  Host.divf
    (Host.scatterAdd scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0
        (shapeCast _ (extractStridedSlice S1x1600000 ![1, 0] (x1) slices_S2x1600000_S1x1600000_1_0) shapeCasts_S1x1600000_S1600000))
      (mulf
        (Host.gather gather_S100000x128_S1600000x1_S1600000x128_1_0_n_n_0_1_1128 z
          (broadcastInDim S1600000x1 ![0] bcast_S1600000_S1600000x1_0
            (select
              (cmpi .slt
                (shapeCast _ (extractStridedSlice S1x1600000 ![0, 0] (x1) slices_S2x1600000_S1x1600000_0_0) shapeCasts_S1x1600000_S1600000)
                (broadcastInDim S1600000 ![] bcast_S_S1600000 (constantI S_ 32 0#32)))
              (addi
                (shapeCast _ (extractStridedSlice S1x1600000 ![0, 0] (x1) slices_S2x1600000_S1x1600000_0_0) shapeCasts_S1x1600000_S1600000)
                (broadcastInDim S1600000 ![] bcast_S_S1600000 (constantI S_ 32 100000#32)))
              (shapeCast _ (extractStridedSlice S1x1600000 ![0, 0] (x1) slices_S2x1600000_S1x1600000_0_0) shapeCasts_S1x1600000_S1600000))))
        (broadcastInDim S1600000x128 ![0, 1] bcast_S1600000x1_S1600000x128_0_1
          (broadcastInDim S1600000x1 ![0] bcast_S1600000_S1600000x1_0 (x2)))))
    (broadcastInDim S100000x128 ![0, 1] bcast_S100000x1_S100000x128_0_1
      (broadcastInDim S100000x1 ![0] bcast_S100000_S100000x1_0
        (addf
          (Host.scatterAdd scatter_S100000_S1600000x1_S1600000_n_0_0_1
            (broadcastInDim S100000 ![] bcast_S_S100000 (constant (F := Ideal) S_ .f32 0x00000000#32))
            (broadcastInDim S1600000x1 ![0] bcast_S1600000_S1600000x1_0
              (shapeCast _ (extractStridedSlice S1x1600000 ![1, 0] (x1) slices_S2x1600000_S1x1600000_1_0) shapeCasts_S1x1600000_S1600000))
            (x2))
          (broadcastInDim S100000 ![] bcast_S_S100000 (constant (F := Ideal) S_ .f32 0x3F800000#32)))))

/-- The program's aggregation stage is `aggregate` of its hidden stage: the same term, name by name. -/
theorem aggregate_eq (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S128x128, .f32⟩ : BufTy).Contents (Elt Ideal))
    (x4 : (⟨S128, .f32⟩ : BufTy).Contents (Elt Ideal)) :
    val_main_v30 (F := Ideal) x0 x1 x2 x3 x4 = aggregate (val_main_v5 (F := Ideal) x0 x3 x4) x1 x2 := by
  unfold aggregate val_main_v30 val_main_v27 val_main_v29 val_main_v28 val_main_v14 val_main_v12 val_main_v13 val_main_cst_0
    val_main_v10 val_main_cst val_main_v11 val_main_v25 val_main_cst_2 val_main_v26 val_main_v9 val_main_v8 val_main_v24
    val_main_v21 val_main_v23 val_main_v22 val_main_v20 val_main_v19 val_main_v16 val_main_v18 val_main_v17 val_main_c_1
    val_main_v15 val_main_c val_main_v7 val_main_v6
  rfl

/-! ## The output -/

/-- The transposed weight at (k, j) is the weight at (j, k). -/
theorem ridx_v33 (i : S100000x128.Idx) (k : Fin 256) : idx_main_v32 (ridx_main_v33 i k) = ix2 (n0 := 128) (n1 := 256) (i 1) k := by
  funext a; match a with | ⟨0, _⟩ => rfl | ⟨1, _⟩ => rfl

/-- The bias broadcast down the rows is read at the column. -/
theorem bias_v35 (i : S100000x128.Idx) : idx_main_v34 (idx_main_v35 i) = ix1 (n := 128) (i 1) := by
  funext a; match a with | ⟨0, _⟩ => rfl

/-- The joined row `[x, a]` at a column `k < 128` is `x` there. -/
theorem concat_left (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S128x128, .f32⟩ : BufTy).Contents (Elt Ideal))
    (x4 : (⟨S128, .f32⟩ : BufTy).Contents (Elt Ideal)) (i : S100000x128.Idx) (k : Fin 128) (h : k.val < 256) :
    val_main_v31 (F := Ideal) x0 x1 x2 x3 x4 (lidx_main_v33 i ⟨k.val, h⟩) = x0 (ix2 (n0 := 100000) (n1 := 128) (i 0) k) := by
  unfold val_main_v31
  generalize val_main_v30 (F := Ideal) x0 x1 x2 x3 x4 = a
  exact concatenate_pair_apply_left (1 : Fin S100000x256.rank) x0 a concatenates_S100000x128_S100000x128_S100000x256_d1
    (lidx_main_v33 i ⟨k.val, h⟩) rfl (ix2 (n0 := 100000) (n1 := 128) (i 0) k) (fun b => match b with | ⟨0, _⟩ => rfl | ⟨1, _⟩ => rfl)

/-- The joined row `[x, a]` at a column `128 + k` is `a` at column `k`. -/
theorem concat_right (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S128x128, .f32⟩ : BufTy).Contents (Elt Ideal))
    (x4 : (⟨S128, .f32⟩ : BufTy).Contents (Elt Ideal)) (i : S100000x128.Idx) (k : Fin 128) (h : 128 + k.val < 256) :
    val_main_v31 (F := Ideal) x0 x1 x2 x3 x4 (lidx_main_v33 i ⟨128 + k.val, h⟩)
      = val_main_v30 (F := Ideal) x0 x1 x2 x3 x4 (ix2 (n0 := 100000) (n1 := 128) (i 0) k) := by
  unfold val_main_v31
  generalize val_main_v30 (F := Ideal) x0 x1 x2 x3 x4 = a
  exact concatenate_pair_apply_right (1 : Fin S100000x256.rank) x0 a concatenates_S100000x128_S100000x128_S100000x256_d1
    (lidx_main_v33 i ⟨128 + k.val, h⟩) rfl rfl (ix2 (n0 := 100000) (n1 := 128) (i 0) k)
    (fun b hb => match b, hb with | ⟨0, _⟩, _ => rfl | ⟨1, _⟩, hb => absurd rfl hb)
    (by show k.val + 128 = 128 + k.val; omega)

/-- The stage before the normalisation is `relu ([x, a] · Wrᵀ + br)`, the contraction split at column 128. -/
theorem preNorm_eq (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S128x128, .f32⟩ : BufTy).Contents (Elt Ideal))
    (x4 : (⟨S128, .f32⟩ : BufTy).Contents (Elt Ideal)) (x5 : (⟨S128x256, .f32⟩ : BufTy).Contents (Elt Ideal))
    (x6 : (⟨S128, .f32⟩ : BufTy).Contents (Elt Ideal)) :
    val_main_v37 (F := Ideal) x0 x1 x2 x3 x4 x5 x6
      = Cert.Spec.preNorm x0 (val_main_v30 (F := Ideal) x0 x1 x2 x3 x4) x5 x6 := by
  funext i
  rw [val_main_v37_apply, val_main_v36_apply, val_main_v33_apply, val_main_v35_apply, val_main_v34_apply,
    val_main_call1_v0_apply, val_main_call1_cst_apply, Cert.Spec.sum_split_256]
  simp only [concat_left, concat_right, val_main_v32_apply, ridx_v33, bias_v35, Ideal.maximumf_def,
    Ideal.addf_def, Ideal.ofBits_def, Ideal.ofBits_zero_f32, Cert.Spec.preNorm]

/-- A row's sum of squares runs over the row. -/
theorem row_idx (i : S100000x128.Idx) (k : Fin 128) :
    idx_main_call2_v1 (idx_main_call2_v2 (idx_main_v41 i)) k = ix2 (n0 := 100000) (n1 := 128) (i 0) k := by
  funext a; match a with | ⟨0, _⟩ => rfl | ⟨1, _⟩ => rfl

/-- The result is the stage before the normalisation with each row scaled by the reciprocal of its clamped norm. -/
theorem out_eq (x0 : (⟨S100000x128, .f32⟩ : BufTy).Contents (Elt Ideal)) (x1 : (⟨S2x1600000, .i32⟩ : BufTy).Contents (Elt Ideal))
    (x2 : (⟨S1600000, .f32⟩ : BufTy).Contents (Elt Ideal)) (x3 : (⟨S128x128, .f32⟩ : BufTy).Contents (Elt Ideal))
    (x4 : (⟨S128, .f32⟩ : BufTy).Contents (Elt Ideal)) (x5 : (⟨S128x256, .f32⟩ : BufTy).Contents (Elt Ideal))
    (x6 : (⟨S128, .f32⟩ : BufTy).Contents (Elt Ideal)) :
    val_main_v42 (F := Ideal) x0 x1 x2 x3 x4 x5 x6
      = Cert.Spec.rowNormalize (Cert.Spec.preNorm x0 (val_main_v30 (F := Ideal) x0 x1 x2 x3 x4) x5 x6) := by
  rw [← preNorm_eq x0 x1 x2 x3 x4 x5 x6]
  funext i
  rw [val_main_v42_apply, val_main_v41_apply, val_main_v40_apply, val_main_v38_apply, val_main_call2_v2_apply,
    val_main_call2_v1_apply, val_main_v39_apply, val_main_cst_3_apply, val_main_call2_cst_apply]
  simp only [val_main_call2_v0_apply, row_idx]
  generalize val_main_v37 (F := Ideal) x0 x1 x2 x3 x4 x5 x6 = o
  simp only [Ideal.hostDivf_def, Ideal.maximumf_def, Ideal.hostUnary_sqrt_def, Ideal.mulf_def, Ideal.ofBits_def,
    Ideal.ofBits_zero_f32, zero_add, Cert.Spec.rowNormalize]
  exact Cert.Spec.div_clamped _ _

end Cert.ReferenceIdeal.RefValue

end
-- ==== Proof.lean ====
/-
  Two dense stages around a weighted neighbour mean: the tiled program against its plain reference, over the extended
  reals.

  Both programs compute, for 100000 nodes with 128 features, the hidden rows `relu (x · Wlᵀ + bl)`, the weighted mean of
  the hidden rows of each node's in-neighbours (gather along the edges' sources, scale by the edge weight, scatter-add at
  the destinations, divide by one plus the scatter-added weights), and the output rows
  `relu ([x, a] · Wrᵀ + br)` divided by `max ‖row‖₂ ε`.

  The tiled program computes the two dense layers block by block, 5000 rows at a time, with the weights transposed
  beforehand and, in the second layer, the 256-wide contraction over the joined row `[x, a]` done as two 128-wide
  products, one with each half of `Wrᵀ`, added; it multiplies by the reciprocal of the clamped norm where the
  reference divides by it. Over the extended reals a block of rows of either layer is the same function of the same
  rows, a sum over 256 indices is the sum of its two halves, and `o · (1 / m) = o / m` for `m = max s ε ≥ ε > 0`; no
  finiteness of the inputs is needed. The neighbour mean is spelt with the same operations in both programs and is
  carried as one function of the hidden rows, the edge list and the weights, never opened.

  Each program's run is stated with its result at `rowNormalize (preNorm x (aggregate (hidden x Wl bl) e w) Wr br)` of
  its own arguments (Proof/KValue.lean for the tiled program, Proof/RefValue.lean over the reference's generated run),
  and the arguments agree.
-/
import proofs.«113638_j23837068493398_1_alg».proof.Defs
import proofs.«113638_j23837068493398_1_alg».proof.Proof.Gen.Kernel
import proofs.«113638_j23837068493398_1_alg».proof.Proof.Gen.Kernel.Skeleton
import proofs.«113638_j23837068493398_1_alg».proof.Proof.Gen.Kernel.Launch
import proofs.«113638_j23837068493398_1_alg».proof.Proof.Gen.Kernel.Points
import proofs.«113638_j23837068493398_1_alg».proof.Proof.Gen.Kernel.Frame
import proofs.«113638_j23837068493398_1_alg».proof.Proof.Gen.KernelIdeal
import proofs.«113638_j23837068493398_1_alg».proof.Proof.Gen.KernelIdeal.Skeleton
import proofs.«113638_j23837068493398_1_alg».proof.Proof.Gen.KernelIdeal.Launch
import proofs.«113638_j23837068493398_1_alg».proof.Proof.Gen.KernelIdeal.Points
import proofs.«113638_j23837068493398_1_alg».proof.Proof.Gen.KernelIdeal.Frame
import proofs.«113638_j23837068493398_1_alg».proof.Proof.Gen.ReferenceIdeal
import proofs.«113638_j23837068493398_1_alg».proof.Proof.Gen.ReferenceIdeal.Run
import proofs.«113638_j23837068493398_1_alg».proof.Proof.Gen.ReferenceIdeal.Read
import proofs.«113638_j23837068493398_1_alg».proof.Proof.Gen.Pre_finite_inputs
import proofs.«113638_j23837068493398_1_alg».proof.Proof.KValue
import proofs.«113638_j23837068493398_1_alg».proof.Proof.RefValue
import Idealize.ShloMosaic.Adequacy
import Idealize.ShloMosaic.Init

noncomputable section

namespace Cert.Proof

open Idealize.ShloMosaic Idealize.SL.Sem

/-- The two programs spell the neighbour mean with the same operations on the same shapes: one function. -/
theorem aggregate_same (z : (⟨Cert.ReferenceIdeal.S100000x128, .f32⟩ : BufTy).Contents (Elt Ideal))
    (e : (⟨Cert.ReferenceIdeal.S2x1600000, .i32⟩ : BufTy).Contents (Elt Ideal))
    (w : (⟨Cert.ReferenceIdeal.S1600000, .f32⟩ : BufTy).Contents (Elt Ideal)) :
    Cert.ReferenceIdeal.RefValue.aggregate z e w = Cert.KernelIdeal.Whole.aggregate z e w := by
  unfold Cert.ReferenceIdeal.RefValue.aggregate Cert.KernelIdeal.Whole.aggregate Cert.KernelIdeal.Whole.aggregateOf
    Cert.KernelIdeal.Whole.sources Cert.KernelIdeal.Whole.destinations
  rfl

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- From memories agreeing on the arguments both programs end with the same result: the reference's run read stage by
    stage is the tiled program's function of the arguments. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v42_eq, Cert.ReferenceIdeal.RefValue.out_eq, Cert.ReferenceIdeal.RefValue.aggregate_eq,
    Cert.ReferenceIdeal.RefValue.hidden_eq, aggregate_same, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
